-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x2048 .f32) (main_arg1 : FVec F S4096x2048 .f32) (main_arg2 : FVec F S4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x2048 : Shape := ⟨2, ![8192, 2048]⟩
abbrev S4096x2048 : Shape := ⟨2, ![4096, 2048]⟩
abbrev S4096 : Shape := ⟨1, ![4096]⟩
abbrev S1x4096 : Shape := ⟨2, ![1, 4096]⟩
abbrev S8192x4096 : Shape := ⟨2, ![8192, 4096]⟩
abbrev S1024x2048 : Shape := ⟨2, ![1024, 2048]⟩
abbrev S512x2048 : Shape := ⟨2, ![512, 2048]⟩
abbrev S1x512 : Shape := ⟨2, ![1, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096x2048, .f32⟩
  | .hbm, ⟨4, _⟩ => ⟨S4096x2048, .bf16⟩
  | .hbm, ⟨5, _⟩ => ⟨S1x4096, .f32⟩
  | .hbm, ⟨6, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x2048_S4096x2048_S8192x4096_1_1_0_0_n_n_wf : DotDims.WF S8192x2048 S4096x2048 S8192x4096 [1] [1] [0] [0] [] []

variable [Facts₀]

def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf

class Facts : Prop extends Facts₀ where

variable [Facts]
-- ==== Proof.Spec.lean ====
/-
  The value both programs compute, as one function of the three argument arrays.

  For x : [8192, 2048], w : [4096, 2048] and b : [4096], entry (n, o) of the result is

      Σ_{k < 2048} x[n, k] · sign(w[o, k])  +  b[o] :

  a linear layer whose weight matrix is replaced by its matrix of signs (and used transposed). The sum is
  taken over the extended reals in the one order k = 0, 1, …, 2047 and is never rearranged below, so the sum
  itself needs no finiteness.

  The one algebraic law the comparison of the two programs needs: a real r added to (s − r) gives s back,
  for EVERY extended real s. For an infinite r it fails (⊤ + (s − ⊤) = ⊤ + ⊥ = ⊥ for a real s), which is
  why the weights have to be finite.
-/
import Idealize.ShloMosaic.PureOps.Ideal
import Idealize.ShloMosaic.PureOps.Ideal.Laws
import Idealize.ShloMosaic.Lib.ValueIdx

noncomputable section

namespace Cert.SignLinear

open Idealize.ShloMosaic Idealize.ShloMosaic.ValueIdx

/-- Entry (n, o) of the sign-weight linear layer: row n of `x` against the signs of row o of `w`, plus `b o`. -/
def out (x : (⟨2, ![8192, 2048]⟩ : Shape).Idx → EReal) (w : (⟨2, ![4096, 2048]⟩ : Shape).Idx → EReal)
    (b : (⟨1, ![4096]⟩ : Shape).Idx → EReal) : (⟨2, ![8192, 4096]⟩ : Shape).Idx → EReal :=
  fun i => (∑ k : Fin 2048, x (ix2 (i 0) k) * Ideal.sign (w (ix2 (i 1) k))) + b (ix1 (i 1))

/-- A real added to the difference from it restores the other term, whatever extended real that term is. -/
theorem real_add_sub_cancel (r : ℝ) (s : EReal) : (r : EReal) + (s - (r : EReal)) = s := by
  induction s using EReal.rec with
  | bot => simp
  | top => simp
  | coe t => norm_cast; ring

end Cert.SignLinear

end
-- ==== Proof.Finite.lean ====
/-
  What the precondition says of the weights.

  The precondition is the conjunction of three tests, one per argument array: every entry a has |a| < +∞, the
  three verdicts joined by "and". Of the three only the middle one is used: it says every weight is neither
  +∞ nor −∞, that is, every weight is a real number. (The absolute value of an extended real a is max a (−a);
  it is below +∞ exactly when a is neither infinity.)
-/
import proofs.«161138_j48601849921988_2_alg».proof.Pre_finite_inputs
import Idealize.ShloMosaic.PureOps.Ideal
import Idealize.ShloMosaic.Lib.ReduceAll
import Idealize.ShloMosaic.Lib.ValueIdx

noncomputable section

namespace Cert.SignLinear

open Idealize.ShloMosaic

/-- An extended real whose absolute value is strictly below +∞ is a real number. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- The scalar shape has one index. -/
instance : Subsingleton Cert.Pre_finite_inputs.S_.Idx := ⟨fun a b => funext fun d => d.elim0⟩

variable [Cert.Pre_finite_inputs.Facts]

/-- Under the precondition every entry of the weight array is a real number: the conjunction's middle verdict is an
    "and" over all entries of the test |w| < +∞, so the test holds at each entry. -/
theorem weights_real (x : FVec Ideal Cert.Pre_finite_inputs.S8192x2048 .f32) (w : FVec Ideal Cert.Pre_finite_inputs.S4096x2048 .f32)
    (b : FVec Ideal Cert.Pre_finite_inputs.S4096 .f32)
    (h : Cert.Pre_finite_inputs.fn (F := Ideal) x w b = fun _ => 1#1) (j : Cert.Pre_finite_inputs.S4096x2048.Idx) :
    ∃ r : ℝ, w j = (r : EReal) := by
  have h0 := congrFun h ValueIdx.ix0
  dsimp only [Cert.Pre_finite_inputs.fn] at h0
  have h1 := (IntOp.andi_eq_one.1 h0).1
  have h2 := (IntOp.andi_eq_one.1 h1).2
  exact real_of_abs_lt_inf (w j) (Host.reduce_andi_all _ _ _ _ _ h2 j)

end Cert.SignLinear

end
-- ==== Proof.RefRead.lean ====
/-
  The reference computes the sign-weight linear layer, provided the weights are real.

  The reference forms, entry by entry, the matrix  w + (sign(w) − w),  multiplies x by its transpose (contracting
  the second axis of both), and adds b to every row. Read at entry (n, o) that is

      Σ_{k < 2048} x[n, k] · ( w[o, k] + (sign(w[o, k]) − w[o, k]) )  +  b[o] ,

  and for a real w[o, k] the bracket is sign(w[o, k]), term by term; the sum is not rearranged.
-/
import proofs.«161138_j48601849921988_2_alg».proof.Proof.Gen.ReferenceIdeal.Read
import proofs.«161138_j48601849921988_2_alg».proof.Proof.Spec

noncomputable section

namespace Cert.SignLinear

open Idealize.ShloMosaic Idealize.ShloMosaic.ValueIdx Cert.ReferenceIdeal Cert.ReferenceIdeal.Read

/-- The reference's result, as a function of its three arguments, is the sign-weight linear layer whenever every
    weight is a real number. -/
theorem reference_eq (x : FVec Ideal S8192x2048 .f32) (w : FVec Ideal S4096x2048 .f32) (b : FVec Ideal S4096 .f32)
    (hw : ∀ j : S4096x2048.Idx, ∃ r : ℝ, w j = (r : EReal)) :
    val_main_v6 (F := Ideal) x w b = out x w b := by
  refine funext fun (i : S8192x4096.Idx) => ?_
  obtain ⟨n, o, rfl⟩ : ∃ (n : Fin 8192) (o : Fin 4096), i = ix2 n o := ⟨i 0, i 1, eq_ix2 i⟩
  have el : ∀ k : Fin 2048, lidx_main_v3 (ix2 n o) k = ix2 n k := fun k =>
    funext fun a => Fin.ext (by match a with | ⟨0, _⟩ => rfl | ⟨1, _⟩ => rfl)
  have er : ∀ k : Fin 2048, ridx_main_v3 (ix2 n o) k = ix2 o k := fun k =>
    funext fun a => Fin.ext (by match a with | ⟨0, _⟩ => rfl | ⟨1, _⟩ => rfl)
  have eb : idx_main_v4 (idx_main_v5 (ix2 n o)) = ix1 o :=
    funext fun a => Fin.ext (by match a with | ⟨0, _⟩ => rfl)
  rw [val_main_v6_apply, val_main_v3_apply, val_main_v5_apply, val_main_v4_apply, eb]
  show (∑ k : Fin 2048, x (lidx_main_v3 (ix2 n o) k) * val_main_v2 (F := Ideal) w (ridx_main_v3 (ix2 n o) k)) + b (ix1 o)
      = (∑ k : Fin 2048, x (ix2 n k) * Ideal.sign (w (ix2 o k))) + b (ix1 o)
  refine congrArg (· + b (ix1 o)) (Finset.sum_congr rfl fun k _ => ?_)
  rw [el, er, val_main_v2_apply, val_main_v1_apply, val_main_v0_apply]
  obtain ⟨r, hr⟩ := hw (ix2 o k)
  show x (ix2 n k) * (w (ix2 o k) + (Ideal.sign (w (ix2 o k)) - w (ix2 o k))) = x (ix2 n k) * Ideal.sign (w (ix2 o k))
  rw [hr, real_add_sub_cancel]

end Cert.SignLinear

end
-- ==== Proof.Payload.lean ====
/-
  What one grid point computes, entry by entry.

  At a grid point the body holds a block X of 1024 rows of x (all 2048 columns), a block S of 512 rows of the
  sign matrix (all 2048 columns) and a block B of 512 bias entries laid out as one row. It stores the
  1024 × 512 tile whose entry (p, q) is

      Σ_{k < 2048} X[p, k] · S[q, k]  +  B[0, q] :

  the matrix product contracts the second axis of BOTH operands (row p of X against row q of S), starts from a
  zero tile, and the bias row is repeated down the 1024 rows. The change of float format applied to X is the
  identity on extended reals.
-/
import proofs.«161138_j48601849921988_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.SignLinear

open Idealize.ShloMosaic Idealize.ShloMosaic.ValueIdx Cert.KernelIdeal Cert.KernelIdeal.Gen

/-- The tile product's left operand index at output entry `i`: its row is `i`'s row. -/
theorem tile_lhs_row (i : S1024x512.Idx) (c : dot_S1024x2048_S512x2048_S1024x512_1_1_0_0_n_n.contr.Idx) :
    (dot_S1024x2048_S512x2048_S1024x512_1_1_0_0_n_n.lhsIdx i c 0).val = (i 0).val := by
  unfold DotDims.lhsIdx
  rw [dif_neg (show ¬(0 : Fin S1024x2048.rank) ∈ dot_S1024x2048_S512x2048_S1024x512_1_1_0_0_n_n.lhsBatch by decide),
    dif_pos (show (0 : Fin S1024x2048.rank) ∈ dot_S1024x2048_S512x2048_S1024x512_1_1_0_0_n_n.lhsNonContracting by decide)]
  rfl

/-- and its column is the contraction index. -/
theorem tile_lhs_col (i : S1024x512.Idx) (c : dot_S1024x2048_S512x2048_S1024x512_1_1_0_0_n_n.contr.Idx) :
    (dot_S1024x2048_S512x2048_S1024x512_1_1_0_0_n_n.lhsIdx i c 1).val = (c ⟨0, by decide⟩).val :=
  dot_S1024x2048_S512x2048_S1024x512_1_1_0_0_n_n.lhsIdx_val_of_single rfl i c

/-- The right operand index at output entry `i`: its row is `i`'s COLUMN (the right operand is used transposed). -/
theorem tile_rhs_row (i : S1024x512.Idx) (c : dot_S1024x2048_S512x2048_S1024x512_1_1_0_0_n_n.contr.Idx) :
    (dot_S1024x2048_S512x2048_S1024x512_1_1_0_0_n_n.rhsIdx i c 0).val = (i 1).val := by
  unfold DotDims.rhsIdx
  rw [dif_neg (show ¬(0 : Fin S512x2048.rank) ∈ dot_S1024x2048_S512x2048_S1024x512_1_1_0_0_n_n.rhsBatch by decide),
    dif_pos (show (0 : Fin S512x2048.rank) ∈ dot_S1024x2048_S512x2048_S1024x512_1_1_0_0_n_n.rhsNonContracting by decide)]
  rfl

/-- and its column is the contraction index. -/
theorem tile_rhs_col (i : S1024x512.Idx) (c : dot_S1024x2048_S512x2048_S1024x512_1_1_0_0_n_n.contr.Idx) :
    (dot_S1024x2048_S512x2048_S1024x512_1_1_0_0_n_n.rhsIdx i c 1).val = (c ⟨0, by decide⟩).val :=
  dot_S1024x2048_S512x2048_S1024x512_1_1_0_0_n_n.rhsIdx_val_of_single rfl i c

/-- The tile product from a zero tile, at entry (p, q): row p of the left operand against row q of the right. -/
theorem tile_product (A : FVec Ideal S1024x2048 .bf16) (S : FVec Ideal S512x2048 .bf16) (p : Fin 1024) (q : Fin 512) :
    matmul dot_S1024x2048_S512x2048_S1024x512_1_1_0_0_n_n none A S (constant S1024x512 .f32 0x00000000#32) (ix2 p q)
      = ∑ k : Fin 2048, A (ix2 p k) * S (ix2 q k) := by
  simp only [matmul]
  rw [Ideal.matmul_constant_zero_apply,
    ← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 p q)
      ((contrEquiv1 dot_S1024x2048_S512x2048_S1024x512_1_1_0_0_n_n 2048 rfl rfl).symm k) = ix2 p k :=
    funext fun a => Fin.ext (by
      match a with
      | ⟨0, _⟩ => exact tile_lhs_row _ _
      | ⟨1, _⟩ => exact (tile_lhs_col _ _).trans hk)
  have er : dot_S1024x2048_S512x2048_S1024x512_1_1_0_0_n_n.rhsIdx (ix2 p q)
      ((contrEquiv1 dot_S1024x2048_S512x2048_S1024x512_1_1_0_0_n_n 2048 rfl rfl).symm k) = ix2 q k :=
    funext fun a => Fin.ext (by
      match a with
      | ⟨0, _⟩ => exact tile_rhs_row _ _
      | ⟨1, _⟩ => exact (tile_rhs_col _ _).trans hk)
  rw [el, er]

/-- The bias row repeated down the tile's rows: entry (p, q) is the row's entry q. -/
theorem bias_down_rows (B : FVec Ideal S1x512 .f32) (p : Fin 1024) (q : Fin 512) :
    broadcastTo S1024x512 B broadcasts_S1x512_S1024x512 (ix2 p q) = B (ix2 (0 : Fin 1) q) := by
  refine broadcastTo_apply B _ (ix2 p q) (ix2 (0 : Fin 1) q) fun a => ?_
  match a with
  | ⟨0, _⟩ => show (0 : Nat) = if (1 : Nat) = 1 then 0 else p.val; rw [if_pos rfl]
  | ⟨1, _⟩ => show q.val = if (512 : Nat) = 1 then 0 else q.val; rw [if_neg (by decide)]

/-- THE TILE a grid point stores, at entry (p, q): row p of its block of x against row q of its block of signs,
    plus entry q of its block of biases. -/
theorem tile_apply (X : FVec Ideal S1024x2048 .f32) (S : FVec Ideal S512x2048 .bf16) (B : FVec Ideal S1x512 .f32)
    (p : Fin 1024) (q : Fin 512) :
    k0_pay1 (F := Ideal) X S B (ix2 p q) = (∑ k : Fin 2048, X (ix2 p k) * S (ix2 q k)) + B (ix2 (0 : Fin 1) q) := by
  unfold k0_pay1
  show matmul dot_S1024x2048_S512x2048_S1024x512_1_1_0_0_n_n none (truncf .bf16 X bitsLt_bf16_f32)
        (shapeCast S512x2048 S shapeCasts_S512x2048_S512x2048) (constant S1024x512 .f32 0x00000000#32) (ix2 p q)
      + broadcastTo S1024x512 (shapeCast S1x512 B shapeCasts_S1x512_S1x512) broadcasts_S1x512_S1024x512 (ix2 p q) = _
  rw [shapeCast_self, shapeCast_self, tile_product, bias_down_rows]
  rfl

end Cert.SignLinear

end
-- ==== Proof.Found.lean ====
/-
  What the grid's region finds in its arrays, and what each input block holds at a grid point.

  Before the region runs, two small computations have happened on whole arrays: the matrix of signs of w (then a
  change of float format, the identity on extended reals) and the bias vector b re-laid as a 1 × 4096 row. So the
  region reads x as launched, sign(w) entry by entry, and the row whose entry (0, o) is b[o].

  A block is a rectangle of its array: the entry at position y inside block number (i₀, i₁) of a window whose
  blocks have r × s entries is the array's entry (i₀·r + y₀, i₁·s + y₁).
-/
import proofs.«161138_j48601849921988_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.SignLinear

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ)

/-- The second window's array, as the region finds it, is the matrix of signs of the weights. -/
theorem signs_found (c : Dev nD) (j : S4096x2048.Idx) :
    (V m c main_v1 : S4096x2048.Idx → EReal) j
      = Ideal.sign ((m ((c : Thread nD τ).loc main_arg1) : S4096x2048.Idx → EReal) j) := by
  have e : (V m c main_v1 : S4096x2048.Idx → EReal)
      = truncf .bf16 (Host.sign (F := Ideal) (m ((c : Thread nD τ).loc main_arg1))) bitsLt_bf16_f32 := by
    dsimp only [Gen.V, Gen.hostOps0]; after_results <;> rfl
  rw [e]; rfl

/-- The third window's array, as the region finds it, is the bias vector as one row: entry (0, o) is b[o]. -/
theorem bias_found (c : Dev nD) (o : Fin 4096) :
    (V m c main_v2 : S1x4096.Idx → EReal) (ix2 (0 : Fin 1) o)
      = (m ((c : Thread nD τ).loc main_arg2) : S4096.Idx → EReal) (ix1 o) := by
  have e : (V m c main_v2 : S1x4096.Idx → EReal)
      = shapeCast S1x4096 (m ((c : Thread nD τ).loc main_arg2) : S4096.Idx → EReal) shapeCasts_S4096_S1x4096 := by
    dsimp only [Gen.V, Gen.hostOps0]; after_results <;> rfl
  rw [e]
  refine (shapeCast_addUnit_apply ![4096] _ _ _).trans (congrArg _ (funext fun a => ?_))
  match a with
  | ⟨0, _⟩ => rfl

/-- The first window's block at point `t` holds 1024 whole rows of x. -/
theorem rows_of_x (c : Dev nD) (t : Fin cfg0.N) (y : S1024x2048.Idx) (i : S8192x2048.Idx)
    (h0 : (i 0).val = win0_0.index t 0 * 1024 + (y 0).val) (h1 : (i 1).val = win0_0.index t 1 * 2048 + (y 1).val) :
    (iblk m c 0 t : S1024x2048.Idx → EReal) y = (m ((c : Thread nD τ).loc main_arg0) : S8192x2048.Idx → EReal) i := by
  unfold iblk
  rw [View.read_apply]
  show V m c main_arg0 (((cfg0.win 0).blk t).view.emb y) = _
  rw [V_main_arg0 m c]
  refine congrArg _ (funext fun a => Fin.ext ?_)
  match a with
  | ⟨0, _⟩ => show win0_0.index t 0 * 1024 + 1 * (y 0).val = (i 0).val; omega
  | ⟨1, _⟩ => show win0_0.index t 1 * 2048 + 1 * (y 1).val = (i 1).val; omega

/-- The second window's block at point `t` holds 512 whole rows of the sign matrix. -/
theorem rows_of_signs (c : Dev nD) (t : Fin cfg0.N) (y : S512x2048.Idx) (i : S4096x2048.Idx)
    (h0 : (i 0).val = win0_1.index t 0 * 512 + (y 0).val) (h1 : (i 1).val = win0_1.index t 1 * 2048 + (y 1).val) :
    (iblk m c 1 t : S512x2048.Idx → EReal) y
      = Ideal.sign ((m ((c : Thread nD τ).loc main_arg1) : S4096x2048.Idx → EReal) i) := by
  unfold iblk
  rw [View.read_apply]
  show (V m c main_v1 : S4096x2048.Idx → EReal) (((cfg0.win 1).blk t).view.emb y) = _
  rw [signs_found m c]
  refine congrArg (fun z => Ideal.sign ((m ((c : Thread nD τ).loc main_arg1) : S4096x2048.Idx → EReal) z))
    (funext fun a => Fin.ext ?_)
  match a with
  | ⟨0, _⟩ => show win0_1.index t 0 * 512 + 1 * (y 0).val = (i 0).val; omega
  | ⟨1, _⟩ => show win0_1.index t 1 * 2048 + 1 * (y 1).val = (i 1).val; omega

/-- The third window's block at point `t` holds 512 consecutive entries of the bias row. -/
theorem run_of_bias (c : Dev nD) (t : Fin cfg0.N) (q : Fin 512) (o : Fin 4096)
    (hz : win0_2.index t 0 = 0) (ho : o.val = win0_2.index t 1 * 512 + q.val) :
    (iblk m c 2 t : S1x512.Idx → EReal) (ix2 (0 : Fin 1) q)
      = (m ((c : Thread nD τ).loc main_arg2) : S4096.Idx → EReal) (ix1 o) := by
  unfold iblk
  rw [View.read_apply]
  show (V m c main_v2 : S1x4096.Idx → EReal) (((cfg0.win 2).blk t).view.emb (ix2 (0 : Fin 1) q)) = _
  have e : ((cfg0.win 2).blk t).view.emb (ix2 (0 : Fin 1) q) = ix2 (0 : Fin 1) o :=
    funext fun a => Fin.ext (by
      match a with
      | ⟨0, _⟩ => show win0_2.index t 0 * 1 + 1 * 0 = 0; omega
      | ⟨1, _⟩ => show win0_2.index t 1 * 512 + 1 * q.val = o.val; omega)
  rw [e, bias_found m c]

end Cert.SignLinear

end
-- ==== Proof.Blocks.lean ====
/-
  From the 64 tiles to the whole result array.

  The grid is 8 × 8. Point (i, j) reads row block i of x (1024 rows), row block j of the sign matrix (512 rows) and
  the j-th run of 512 biases, and writes tile (i, j) of the 8192 × 4096 result, a 1024 × 512 rectangle. Entry (p, q)
  of that tile is result entry (1024·i + p, 512·j + q); its value (the tile lemma) uses row p of the x block, which
  is row 1024·i + p of x, row q of the sign block, which is row 512·j + q of sign(w), and bias 512·j + q: exactly
  the sign-weight linear layer at that entry. The 64 tiles cover the result: entry (n, o) lies in tile
  (n / 1024, o / 512). So after the run the result array is the sign-weight linear layer of the arguments.
-/
import proofs.«161138_j48601849921988_2_alg».proof.Proof.Gen.KernelIdeal.Value
import proofs.«161138_j48601849921988_2_alg».proof.Proof.Spec
import proofs.«161138_j48601849921988_2_alg».proof.Proof.Payload
import proofs.«161138_j48601849921988_2_alg».proof.Proof.Found

set_option maxRecDepth 16384

noncomputable section

namespace Cert.SignLinear

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The block numbers at a grid point, decided over the 64 points: the x block moves with the tile's row number,
    the sign block and the bias run with the tile's column number, every other block number is 0, and the tile's
    numbers stay below 8. -/
theorem block_numbers : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every tile of the 8 × 8 tiling is some grid point's. -/
theorem every_tile : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- The sign-weight linear layer of the three arguments as launched. -/
abbrev result (c : Dev nD) : S8192x4096.Idx → EReal :=
  out (m ((c : Thread nD τ).loc main_arg0)) (m ((c : Thread nD τ).loc main_arg1)) (m ((c : Thread nD τ).loc main_arg2))

/-- WHAT POINT `t` WRITES BACK is tile `t` of the sign-weight linear layer. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero zero_offsets]
  simp only [View.ld_unit_zero (S := S1024x2048) zero_offsets, View.ld_unit_zero (S := S512x2048) zero_offsets,
    View.ld_unit_zero (S := S1x512) zero_offsets]
  obtain ⟨e0, e1, e2, e3, e4, e5, e6, e7⟩ := block_numbers t
  funext j
  have hj0 : (j 0).val < 1024 := (j 0).isLt
  have hj1 : (j 1).val < 512 := (j 1).isLt
  obtain ⟨p, q, hp, hq, hpq⟩ : ∃ (p : Fin 1024) (q : Fin 512), p.val = (j 0).val ∧ q.val = (j 1).val
      ∧ (cfg0.win 3).xinj (grid0.coords t) j = ix2 p q :=
    ⟨⟨(j 0).val, hj0⟩, ⟨(j 1).val, hj1⟩, rfl, rfl, funext fun a => by match a with | ⟨0, _⟩ => rfl | ⟨1, _⟩ => rfl⟩
  refine (congrArg (k0_pay1 (F := Ideal) (iblk m c 0 t) (iblk m c 1 t) (iblk m c 2 t)) hpq).trans
    ((tile_apply (iblk m c 0 t) (iblk m c 1 t) (iblk m c 2 t) p q).trans ?_)
  show _ = out (m ((c : Thread nD τ).loc main_arg0)) (m ((c : Thread nD τ).loc main_arg1))
      (m ((c : Thread nD τ).loc main_arg2)) (((cfg0.win 3).blk t).view.emb j)
  unfold out
  refine congrArg₂ (· + ·) (Finset.sum_congr rfl fun k _ => congrArg₂ (· * ·) ?_ ?_) ?_
  · refine rows_of_x m c t _ _ ?_ ?_
    · show win0_3.index t (0 : Fin 2) * 1024 + 1 * (j 0).val = win0_0.index t (0 : Fin 2) * 1024 + p.val; omega
    · show k.val = win0_0.index t (1 : Fin 2) * 2048 + k.val; omega
  · refine rows_of_signs m c t _ _ ?_ ?_
    · show win0_3.index t (1 : Fin 2) * 512 + 1 * (j 1).val = win0_1.index t (0 : Fin 2) * 512 + q.val; omega
    · show k.val = win0_1.index t (1 : Fin 2) * 2048 + k.val; omega
  · refine run_of_bias m c t _ _ e4 ?_
    show win0_3.index t (1 : Fin 2) * 512 + 1 * (j 1).val = win0_2.index t (1 : Fin 2) * 512 + q.val; omega

/-- A result entry is in point `t`'s tile iff each coordinate is in the tile's range on its axis. -/
theorem mem_tile (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v3).slice (win0_3.rect t)).set ↔ _
  rw [View.set_slice_whole, Rect.mem_set_unit]
  exact Iff.rfl

/-- THE TILES COVER THE RESULT: entry (n, o) lies in the tile numbered (n / 1024, o / 512). -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := every_tile ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_tile]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- THE RESULT ARRAY after the run is the sign-weight linear layer of the arguments. -/
theorem final (c : Dev nD) : (dats m 0 c).arrAt 3 cfg0.N = result m c :=
  (dats m 0 c).arrAt_eq_of_cover 3 (result m c) (fun t _ => flushed_eq m c t) covered

/-- The kernel's run, read: every weakly fair execution ends with the result array at the sign-weight linear layer
    of the arguments, and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.SignLinear

end
-- ==== Proof.lean ====
/-
  A linear layer with sign-binarized weights, computed tile by tile, against the same layer written with the
  straight-through weight  w + (sign(w) − w).

  Both programs take x : [8192, 2048], w : [4096, 2048], b : [4096] and return an [8192, 4096] array.

  * The kernel first forms sign(w) (and changes its float format, which is the identity on extended reals) and lays
    b out as a row; then an 8 × 8 grid computes the result in 1024 × 512 tiles, tile (i, j) being the product of row
    block i of x with the TRANSPOSE of row block j of sign(w), over the full inner dimension 2048, started from a
    zero tile, plus the j-th run of 512 biases repeated down the rows. The tiles partition the result, so the result
    at (n, o) is  Σ_k x[n, k] · sign(w[o, k]) + b[o]  (Proof/Payload, Proof/Found, Proof/Blocks).
  * The reference forms  w + (sign(w) − w)  entry by entry, multiplies x by its transpose in one product, and adds b
    to every row:  Σ_k x[n, k] · (w[o, k] + (sign(w[o, k]) − w[o, k])) + b[o]  (Proof/RefRead).

  The two agree term by term because  r + (s − r) = s  whenever r is a real number, for any extended real s
  (Proof/Spec). For r = ±∞ this fails, so the precondition — every input entry finite — is used, and only for the
  weights (Proof/Finite). No sum is reordered, so nothing else needs finiteness.

  The kernel's idealization rewrote no operation, so the "preserves" conjunct is the trivial proposition. The three
  termination-and-unchanged-arguments conjuncts come from the generated runs.
-/
import proofs.«161138_j48601849921988_2_alg».proof.Defs
import proofs.«161138_j48601849921988_2_alg».proof.Proof.Gen.Kernel
import proofs.«161138_j48601849921988_2_alg».proof.Proof.Gen.Kernel.Skeleton
import proofs.«161138_j48601849921988_2_alg».proof.Proof.Gen.Kernel.Launch
import proofs.«161138_j48601849921988_2_alg».proof.Proof.Gen.Kernel.Points
import proofs.«161138_j48601849921988_2_alg».proof.Proof.Gen.Kernel.Frame
import proofs.«161138_j48601849921988_2_alg».proof.Proof.Gen.KernelIdeal
import proofs.«161138_j48601849921988_2_alg».proof.Proof.Gen.KernelIdeal.Skeleton
import proofs.«161138_j48601849921988_2_alg».proof.Proof.Gen.KernelIdeal.Launch
import proofs.«161138_j48601849921988_2_alg».proof.Proof.Gen.KernelIdeal.Points
import proofs.«161138_j48601849921988_2_alg».proof.Proof.Gen.KernelIdeal.Frame
import proofs.«161138_j48601849921988_2_alg».proof.Proof.Gen.ReferenceIdeal
import proofs.«161138_j48601849921988_2_alg».proof.Proof.Gen.KernelIdeal.Value
import proofs.«161138_j48601849921988_2_alg».proof.Proof.Gen.ReferenceIdeal.Run
import proofs.«161138_j48601849921988_2_alg».proof.Proof.Gen.ReferenceIdeal.Read
import proofs.«161138_j48601849921988_2_alg».proof.Proof.Gen.Pre_finite_inputs
import proofs.«161138_j48601849921988_2_alg».proof.Proof.Spec
import proofs.«161138_j48601849921988_2_alg».proof.Proof.Finite
import proofs.«161138_j48601849921988_2_alg».proof.Proof.RefRead
import proofs.«161138_j48601849921988_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, w and b, with every entry finite, both programs end with the result array at
    Σ_k x[n, k] · sign(w[o, k]) + b[o]: the kernel by its tiles, the reference because each weight r is real, so that
    its  r + (sign r − r)  is  sign r. -/
theorem algebraic : Cert.algebraic_KernelIdeal_ReferenceIdeal := by
  intro m ρ m' ρ' hpre hagree
  refine ⟨fun c => Cert.SignLinear.result m c, Cert.SignLinear.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v6_eq _ _ _).trans
    (Cert.SignLinear.reference_eq _ _ _ fun j => Cert.SignLinear.weights_real _ _ _ (hpre c) j)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
